-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x8 : Shape := ⟨3, ![8, 4096, 8]⟩
abbrev S8 : Shape := ⟨1, ![8]⟩
abbrev S8x2048 : Shape := ⟨2, ![8, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where
  bcast_S_S8x4096x8 : S_.BroadcastsInDim S8x4096x8 (![] : Fin 0 → Fin S8x4096x8.rank)
  reducesTo_S8x4096x8_S_d0_1_2 : S8x4096x8.ReducesTo [0, 1, 2] S_
  h_S_ : 0 < S_.numel
  bcast_S_S8 : S_.BroadcastsInDim S8 (![] : Fin 0 → Fin S8.rank)
  reducesTo_S8_S_d0 : S8.ReducesTo [0] S_
  bcast_S_S8x2048 : S_.BroadcastsInDim S8x2048 (![] : Fin 0 → Fin S8x2048.rank)
  reducesTo_S8x2048_S_d0_1 : S8x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2048x512 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x4096x8 .f32) (main_arg1 : FVec F S8 .f32) (main_arg2 : FVec F S8x2048 .f32) (main_arg3 : FVec F S2048 .f32) (main_arg4 : FVec F S2048x512 .f32) (main_arg5 : FVec F S512 .f32) : IVec S_ 1 :=
  let main_v0 : FVec F S8x4096x8 .f32 := Host.absf main_arg0
  let main_cst : FVec F S_ .f32 := constant S_ .f32 0x7F800000#32
  let main_v1 : FVec F S8x4096x8 .f32 := broadcastInDim S8x4096x8 ![] bcast_S_S8x4096x8 main_cst
  let main_v2 : IVec S8x4096x8 1 := cmpf .olt main_v0 main_v1
  let main_c : IVec S_ 1 := constantI S_ 1 1#1
  let main_v3 : IVec S_ 1 := (fun x v => Host.reduce IntOp.andi x v reducesTo_S8x4096x8_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x4096x8 : Shape := ⟨3, ![8, 4096, 8]⟩
abbrev S8 : Shape := ⟨1, ![8]⟩
abbrev S8x2048 : Shape := ⟨2, ![8, 2048]⟩
abbrev S2048 : Shape := ⟨1, ![2048]⟩
abbrev S2048x512 : Shape := ⟨2, ![2048, 512]⟩
abbrev S512 : Shape := ⟨1, ![512]⟩
abbrev S32768x8 : Shape := ⟨2, ![32768, 8]⟩
abbrev S1x8 : Shape := ⟨2, ![1, 8]⟩
abbrev S1x2048 : Shape := ⟨2, ![1, 2048]⟩
abbrev S1x512 : Shape := ⟨2, ![1, 512]⟩
abbrev S32768x512 : Shape := ⟨2, ![32768, 512]⟩
abbrev S1024x8 : Shape := ⟨2, ![1024, 8]⟩
abbrev S1024x512 : Shape := ⟨2, ![1024, 512]⟩
abbrev S1024x2048 : Shape := ⟨2, ![1024, 2048]⟩
abbrev S8x4096x512 : Shape := ⟨3, ![8, 4096, 512]⟩

abbrev nBuf : Space → Nat
  | .hbm => 15
  | .vmem => 9
  | .smem => 0
  | _ => 0

abbrev bufTy : (tb : Table) → Fin (tcTables nBuf tb) → BufTy
  | .hbm, ⟨0, _⟩ => ⟨S8x4096x8, .f32⟩
  | .hbm, ⟨1, _⟩ => ⟨S8, .f32⟩
  | .hbm, ⟨2, _⟩ => ⟨S8x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S32768x8, .f32⟩
  | .hbm, ⟨7, _⟩ => ⟨S8, .f32⟩
  | .hbm, ⟨8, _⟩ => ⟨S1x8, .f32⟩
  | .hbm, ⟨9, _⟩ => ⟨S8x2048, .bf16⟩
  | .hbm, ⟨10, _⟩ => ⟨S2048x512, .bf16⟩
  | .hbm, ⟨11, _⟩ => ⟨S1x2048, .f32⟩
  | .hbm, ⟨12, _⟩ => ⟨S1x512, .f32⟩
  | .hbm, ⟨13, _⟩ => ⟨S32768x512, .f32⟩
  | .hbm, ⟨14, _⟩ => ⟨S8x4096x512, .f32⟩
  | .local _ .vmem, ⟨0, _⟩ => ⟨S1024x8, .f32⟩
  | .local _ .vmem, ⟨1, _⟩ => ⟨S1024x8, .f32⟩
  | .local _ .vmem, ⟨2, _⟩ => ⟨S1x8, .f32⟩
  | .local _ .vmem, ⟨3, _⟩ => ⟨S8x2048, .bf16⟩
  | .local _ .vmem, ⟨4, _⟩ => ⟨S1x2048, .f32⟩
  | .local _ .vmem, ⟨5, _⟩ => ⟨S2048x512, .bf16⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S8x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x8_S32768x8 : S8x4096x8.ShapeCasts S32768x8
  shapeCasts_S8_S1x8 : S8.ShapeCasts S1x8
  bitsLt_bf16_f32 : FTy.bits .bf16 < FTy.bits .f32
  shapeCasts_S2048_S1x2048 : S2048.ShapeCasts S1x2048
  shapeCasts_S512_S1x512 : S512.ShapeCasts S1x512
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S32768x512_S8x4096x512 : S32768x512.ShapeCasts S8x4096x512
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S32768x8.size a
  hwx0_0 : ∀ i : grid0.Coords, EltTy.bits .f32 = 32 ∨ (Rect.block (s := S32768x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .bf16 = 32 ∨ (Rect.block (s := S8x2048) S8x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x8 : Shape := ⟨3, ![8, 4096, 8]⟩
abbrev S8 : Shape := ⟨1, ![8]⟩
abbrev S8x2048 : Shape := ⟨2, ![8, 2048]⟩
abbrev S2048 : Shape := ⟨1, ![2048]⟩
abbrev S2048x512 : Shape := ⟨2, ![2048, 512]⟩
abbrev S512 : Shape := ⟨1, ![512]⟩
abbrev S1x1x8 : Shape := ⟨3, ![1, 1, 8]⟩
abbrev S8x4096x2048 : Shape := ⟨3, ![8, 4096, 2048]⟩
abbrev S1x1x2048 : Shape := ⟨3, ![1, 1, 2048]⟩
abbrev S_ : Shape := ⟨0, ![]⟩
abbrev S8x4096x512 : Shape := ⟨3, ![8, 4096, 512]⟩
abbrev S1x1x512 : Shape := ⟨3, ![1, 1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x8, .f32⟩
  | .hbm, ⟨1, _⟩ => ⟨S8, .f32⟩
  | .hbm, ⟨2, _⟩ => ⟨S8x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S8x4096x8, .f32⟩
  | .hbm, ⟨7, _⟩ => ⟨S8, .f32⟩
  | .hbm, ⟨8, _⟩ => ⟨S1x1x8, .f32⟩
  | .hbm, ⟨9, _⟩ => ⟨S8x4096x8, .f32⟩
  | .hbm, ⟨10, _⟩ => ⟨S8x4096x8, .f32⟩
  | .hbm, ⟨11, _⟩ => ⟨S8x4096x2048, .f32⟩
  | .hbm, ⟨12, _⟩ => ⟨S1x1x2048, .f32⟩
  | .hbm, ⟨13, _⟩ => ⟨S8x4096x2048, .f32⟩
  | .hbm, ⟨14, _⟩ => ⟨S8x4096x2048, .f32⟩
  | .hbm, ⟨15, _⟩ => ⟨S_, .f32⟩
  | .hbm, ⟨16, _⟩ => ⟨S8x4096x2048, .f32⟩
  | .hbm, ⟨17, _⟩ => ⟨S8x4096x2048, .f32⟩
  | .hbm, ⟨18, _⟩ => ⟨S8x4096x512, .f32⟩
  | .hbm, ⟨19, _⟩ => ⟨S1x1x512, .f32⟩
  | .hbm, ⟨20, _⟩ => ⟨S8x4096x512, .f32⟩
  | .hbm, ⟨21, _⟩ => ⟨S8x4096x512, .f32⟩
  | _, _ => ⟨S8x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x8_S8x2048_S8x4096x2048_2_0_01_1_n_n_wf : DotDims.WF S8x4096x8 S8x2048 S8x4096x2048 [2] [0] [0, 1] [1] [] []
  dot_S8x4096x2048_S2048x512_S8x4096x512_2_0_01_1_n_n_wf : DotDims.WF S8x4096x2048 S2048x512 S8x4096x512 [2] [0] [0, 1] [1] [] []

variable [Facts₀]

def dot_S8x4096x8_S8x2048_S8x4096x2048_2_0_01_1_n_n : DotDims S8x4096x8 S8x2048 S8x4096x2048 where
  lhsContracting := [2]
  rhsContracting := [0]
  lhsNonContracting := [0, 1]
  rhsNonContracting := [1]
  lhsBatch := []
  rhsBatch := []
  wf := dot_S8x4096x8_S8x2048_S8x4096x2048_2_0_01_1_n_n_wf
def dot_S8x4096x2048_S2048x512_S8x4096x512_2_0_01_1_n_n : DotDims S8x4096x2048 S2048x512 S8x4096x512 where
  lhsContracting := [2]
  rhsContracting := [0]
  lhsNonContracting := [0, 1]
  rhsNonContracting := [1]
  lhsBatch := []
  rhsBatch := []
  wf := dot_S8x4096x2048_S2048x512_S8x4096x512_2_0_01_1_n_n_wf

class Facts : Prop extends Facts₀ where

variable [Facts]
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibDotRows.lean ====
/-
  The host's matrix product, read at a row and a column.

  For dimension numbers that contract the left operand's axis 1 against the right operand's axis 0, with no batch axis,
  the host product of an [M, K] and a [K, N] array reads at (p, c) as the sum over a < K of l(p, a) · r(a, c): on the
  extended reals the host product is the plain sum over the contraction shape's indices, and that shape has one axis.
  The companion of the same reading of a kernel's product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The host product at (p, c), from the four facts that say which operand index the dimension numbers read at an
    output index and a contraction index. -/
theorem dotGeneral_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    Host.dotGeneral d prec l r (ix2 p c) = ∑ a : Fin K, l (ix2 p a) * r (ix2 a c) := by
  show FloatOps.dotGeneral d prec .single l r (ix2 p c) = _
  rw [Ideal.dotGeneral_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibDotRows

end
-- ==== Proof.LibTileRows.lean ====
/-
  A tile of rows of a matrix product, and a bias row added to every row.

  `rowsProd X W` is the product of an [M, K] array and a [K, N] array entry by entry: at (r, c) the sum over a < K of
  X(r, a) · W(a, c). On the extended reals the host's product with plain dimension numbers (the left operand's axis 1
  contracted against the right operand's axis 0, no batch axis) is this array. A kernel that walks the rows in tiles
  multiplies, at each tile, the tile's rows [Mb, K] by the whole of W into a zero accumulator: when the tile's rows are
  the rows o, o + 1, … of X, what it leaves at (p, c) is `rowsProd X W` at (o + p, c) — a row of the product depends on
  that row of X only.

  `rowsBias A B` adds the one row B [1, N] to every row of A [M, N]. A tile of rows of A with the same B added to each
  row is the tile of `rowsBias A B`.
-/
import proofs.«155636_j65481071397339_2_alg».proof.Proof.LibMatmulRows
import proofs.«155636_j65481071397339_2_alg».proof.Proof.LibDotRows
import Idealize.ShloMosaic.Lib.Pipeline.Value
import Idealize.ShloMosaic.Lib.ValueLayout

noncomputable section

namespace Cert.LibTileRows

open Idealize.ShloMosaic Idealize.ShloMosaic.ValueIdx

/-- The product of an [M, K] and a [K, N] array, entry by entry. -/
def rowsProd {M K N : Nat} (X : (⟨2, ![M, K]⟩ : Shape).Idx → EReal) (W : (⟨2, ![K, N]⟩ : Shape).Idx → EReal) :
    (⟨2, ![M, N]⟩ : Shape).Idx → EReal :=
  fun i => ∑ a : Fin K, X (ix2 (i 0) a) * W (ix2 a (i 1))

/-- The host's plain product is `rowsProd`. -/
theorem rowsProd_eq_dot {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (X : FVec Ideal ⟨2, ![M, K]⟩ .f32) (W : FVec Ideal ⟨2, ![K, N]⟩ .f32) :
    rowsProd X W = Host.dotGeneral (F := Ideal) d none X W := by
  funext i
  obtain ⟨p, q, rfl⟩ : ∃ (p : Fin M) (q : Fin N), i = ix2 p q := ⟨i 0, i 1, eq_ix2 i⟩
  exact (Cert.LibDotRows.dotGeneral_ix2 d hr hs hl0 hl1 hr0 hr1 none X W p q).symm

/-- A tile of rows times the whole right operand, into the zero accumulator: the tile of the whole product whose rows
    start at row `o`. -/
theorem tile_rowsProd {Mb M K N : Nat} {φ₁ φ₂ : FTy} (d : DotDims ⟨2, ![Mb, K]⟩ ⟨2, ![K, N]⟩ ⟨2, ![Mb, N]⟩)
    (hr : d.contr.rank = 1) (hs : d.contr.size ⟨0, by omega⟩ = K)
    (hl0 : ∀ (i : (⟨2, ![Mb, N]⟩ : Shape).Idx) (q : d.contr.Idx), (d.lhsIdx i q 0).val = (i 0).val)
    (hl1 : ∀ (i : (⟨2, ![Mb, N]⟩ : Shape).Idx) (q : d.contr.Idx), (d.lhsIdx i q 1).val = (q ⟨0, by omega⟩).val)
    (hr0 : ∀ (i : (⟨2, ![Mb, N]⟩ : Shape).Idx) (q : d.contr.Idx), (d.rhsIdx i q 0).val = (q ⟨0, by omega⟩).val)
    (hr1 : ∀ (i : (⟨2, ![Mb, N]⟩ : Shape).Idx) (q : d.contr.Idx), (d.rhsIdx i q 1).val = (i 1).val)
    (prec : Option ContractPrecision) (l : FVec Ideal ⟨2, ![Mb, K]⟩ φ₁) (r : FVec Ideal ⟨2, ![K, N]⟩ φ₂)
    (X : (⟨2, ![M, K]⟩ : Shape).Idx → EReal) (W : (⟨2, ![K, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x)
    (y : (⟨2, ![Mb, N]⟩ : Shape).Idx) (i : (⟨2, ![M, N]⟩ : Shape).Idx)
    (hi0 : (i 0).val = o + (y 0).val) (hi1 : (i 1).val = (y 1).val) :
    matmul d prec l r (constant ⟨2, ![Mb, N]⟩ .f32 0x00000000#32) y = rowsProd X W i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [Cert.LibMatmulRows.matmul_zero_ix2 d hr hs hl0 hl1 hr0 hr1 prec l r p v]
  unfold rowsProd
  refine Finset.sum_congr rfl fun a _ => ?_
  rw [hX (ix2 p a) (ix2 u a) hi0 rfl, hW]
  rfl

/-- One row added to every row. -/
def rowsBias {M N : Nat} (A : (⟨2, ![M, N]⟩ : Shape).Idx → EReal) (B : (⟨2, ![1, N]⟩ : Shape).Idx → EReal) :
    (⟨2, ![M, N]⟩ : Shape).Idx → EReal :=
  fun i => A i + B (ix2 (0 : Fin 1) (i 1))

/-- One row added to every row, then the maximum with the float word zero (a rectifier). -/
def rowsBiasRelu {M N : Nat} (A : (⟨2, ![M, N]⟩ : Shape).Idx → EReal) (B : (⟨2, ![1, N]⟩ : Shape).Idx → EReal) :
    (⟨2, ![M, N]⟩ : Shape).Idx → EReal :=
  fun i => max (rowsBias A B i) (Ideal.ofBits .f32 0x00000000#32)

/-- A tile of rows with the one row `b` broadcast over it and added: the tile of `rowsBias A B` whose rows start at
    row `o`, when the tile holds rows `o`, `o + 1`, … of `A` and `b` is `B`. -/
theorem tile_rowsBias {Mb M N : Nat} (a : (⟨2, ![Mb, N]⟩ : Shape).Idx → EReal) (b : (⟨2, ![1, N]⟩ : Shape).Idx → EReal)
    (hb : (⟨2, ![1, N]⟩ : Shape).Broadcasts ⟨2, ![Mb, N]⟩)
    (A : (⟨2, ![M, N]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    a y + broadcastTo ⟨2, ![Mb, N]⟩ b hb y = rowsBias A B i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [broadcastTo_1b_ab_apply b hb p v, hA (ix2 p v) (ix2 u v) hi0 rfl, hB]
  rfl

/-- One row added to every row is the sum with the row broadcast along axis 0 (a `broadcast_in_dim` of [1, N] to
    [M, N] that keeps both axes). -/
theorem rowsBias_eq_add {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1]) :
    rowsBias A B = addf A (broadcastInDim ⟨2, ![M, N]⟩ ![0, 1] hb B) := by
  funext i
  obtain ⟨p, q, rfl⟩ : ∃ (p : Fin M) (q : Fin N), i = ix2 p q := ⟨i 0, i 1, eq_ix2 i⟩
  rw [addf_apply, broadcastInDim_apply ![0, 1] hb B (ix2 p q) (ix2 (0 : Fin 1) q) ?_]
  · rfl
  · intro a
    match a with
    | ⟨0, _⟩ => rfl
    | ⟨1, _⟩ =>
      show q.val = if N = 1 then 0 else q.val
      split
      · have := q.isLt; omega
      · rfl

/-- The same followed by the maximum with zero, the zero spelt as a scalar constant broadcast to the whole shape. -/
theorem rowsBiasRelu_eq_max {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1])
    (h0 : (⟨0, ![]⟩ : Shape).BroadcastsInDim ⟨2, ![M, N]⟩ ![]) :
    rowsBiasRelu A B = maximumf (addf A (broadcastInDim ⟨2, ![M, N]⟩ ![0, 1] hb B))
      (broadcastInDim ⟨2, ![M, N]⟩ ![] h0 (constant (F := Ideal) ⟨0, ![]⟩ .f32 0x00000000#32)) := by
  funext i
  rw [maximumf_apply, ← rowsBias_eq_add A B hb,
    broadcastInDim_apply ![] h0 (constant (F := Ideal) ⟨0, ![]⟩ .f32 0x00000000#32) i ix0 (fun a => a.elim0)]
  rfl

end Cert.LibTileRows

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.LibDenseTile.lean ====
/-
  A dense layer with a rectifier, and two arrays laid side by side, computed on a tile of rows.

  A kernel that walks the rows of an [M, K] array X in tiles computes, on the tile whose rows are rows o, o + 1, … of
  X, the product of the tile with a [K, N] array W into a zero accumulator, adds the one row B to every row, takes
  the maximum with zero and changes the float format. On the extended reals the change of format is the identity,
  and what the kernel leaves at row p, column c of the tile is the whole-array function
  `rowsBiasRelu (rowsProd X W) B` at row o + p, column c: a row of the result depends on that row of X only.

  `joinCols P Q` lays an [M, A] array and an [M, B] array side by side: column a < A of the result is column a of P,
  column A + b is column b of Q. A tile of rows of P beside the same tile of rows of Q is that tile of `joinCols P Q`.
-/
import proofs.«155636_j65481071397339_2_alg».proof.Proof.LibTileRows
import proofs.«155636_j65481071397339_2_alg».proof.Proof.LibPlainDot

noncomputable section

namespace Cert.LibDenseTile

open Idealize.ShloMosaic Idealize.ShloMosaic.ValueIdx Cert.LibTileRows Cert.LibPlainDot

/-- The tile's dense layer with rectifier is the tile of the whole-array one. -/
theorem tile_denseRelu {Mb M K N : Nat} {φ₁ φ₂ ψ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩) (hψ : ψ.bits < FTy.f32.bits)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (truncf ψ (maximumf (addf (matmul d none l r (constant ⟨2, ![Mb, N]⟩ .f32 0x00000000#32)) (broadcastTo ⟨2, ![Mb, N]⟩ b hb))
        (broadcast ⟨2, ![Mb, N]⟩ (Scalar.ofBits .f32 0x00000000#32))) hψ : FVec Ideal ⟨2, ![Mb, N]⟩ ψ) y
      = rowsBiasRelu (rowsProd X W) B i := by
  show max (matmul d none l r (constant ⟨2, ![Mb, N]⟩ .f32 0x00000000#32) y + broadcastTo ⟨2, ![Mb, N]⟩ b hb y)
      (Ideal.ofBits .f32 0x00000000#32) = max (rowsBias (rowsProd X W) B i) (Ideal.ofBits .f32 0x00000000#32)
  rw [tile_rowsBias _ b hb (rowsProd X W) B o
    (fun x k e0 e1 => tile_rowsProd d hd.rank hd.size hd.lhs0 hd.lhs1 hd.rhs0 hd.rhs1 none l r X W o hX hW x k e0 e1)
    hB y i hi0 hi1]

/-- The tile's plain product plus a bias row is the tile of the whole-array one. -/
theorem tile_dense {Mb M K N : Nat} {φ₁ φ₂ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (addf (matmul d none l r (constant ⟨2, ![Mb, N]⟩ .f32 0x00000000#32)) (broadcastTo ⟨2, ![Mb, N]⟩ b hb) : FVec Ideal ⟨2, ![Mb, N]⟩ .f32) y
      = rowsBias (rowsProd X W) B i :=
  tile_rowsBias _ b hb (rowsProd X W) B o
    (fun x k e0 e1 => tile_rowsProd d hd.rank hd.size hd.lhs0 hd.lhs1 hd.rhs0 hd.rhs1 none l r X W o hX hW x k e0 e1)
    hB y i hi0 hi1

/-- Two arrays with the same rows laid side by side (columns past both are zero; there are none when C = A + B). -/
def joinCols {M A B C : Nat} (P : (⟨2, ![M, A]⟩ : Shape).Idx → EReal) (Q : (⟨2, ![M, B]⟩ : Shape).Idx → EReal) :
    (⟨2, ![M, C]⟩ : Shape).Idx → EReal :=
  fun i => if h : (i 1).val < A then P (ix2 (i 0) ⟨(i 1).val, h⟩)
    else if h' : (i 1).val - A < B then Q (ix2 (i 0) ⟨(i 1).val - A, h'⟩) else 0

/-- A tile of rows of P beside the same tile of rows of Q is that tile of `joinCols P Q`. -/
theorem tile_joinCols {Mb M A B C : Nat} (p : (⟨2, ![Mb, A]⟩ : Shape).Idx → EReal) (q : (⟨2, ![Mb, B]⟩ : Shape).Idx → EReal)
    (hc : Shape.Concatenates [⟨2, ![Mb, A]⟩, ⟨2, ![Mb, B]⟩] ⟨2, ![Mb, C]⟩ 1) (hC : C = A + B)
    (P : (⟨2, ![M, A]⟩ : Shape).Idx → EReal) (Q : (⟨2, ![M, B]⟩ : Shape).Idx → EReal) (o : Nat)
    (hP : ∀ (x : (⟨2, ![Mb, A]⟩ : Shape).Idx) (k : (⟨2, ![M, A]⟩ : Shape).Idx),
      (k 0).val = o + (x 0).val → (k 1).val = (x 1).val → p x = P k)
    (hQ : ∀ (x : (⟨2, ![Mb, B]⟩ : Shape).Idx) (k : (⟨2, ![M, B]⟩ : Shape).Idx),
      (k 0).val = o + (x 0).val → (k 1).val = (x 1).val → q x = Q k)
    (y : (⟨2, ![Mb, C]⟩ : Shape).Idx) (i : (⟨2, ![M, C]⟩ : Shape).Idx)
    (hi0 : (i 0).val = o + (y 0).val) (hi1 : (i 1).val = (y 1).val) :
    concatenate ⟨2, ![Mb, C]⟩ 1 [⟨⟨2, ![Mb, A]⟩, p⟩, ⟨⟨2, ![Mb, B]⟩, q⟩] hc y = joinCols P Q i := by
  have hy1 : (y 1).val < C := idx2_lt1 y
  unfold joinCols
  by_cases h : (y 1).val < A
  · have h' : (i 1).val < A := by omega
    rw [dif_pos h', concatenate_pair_apply_left (1 : Fin 2) p q hc y rfl (ix2 (y 0) ⟨(y 1).val, h⟩)
      (fun b => by match b with | ⟨0, _⟩ => rfl | ⟨1, _⟩ => rfl)]
    exact hP _ _ hi0 hi1
  · have h' : ¬ (i 1).val < A := by omega
    have h2 : (y 1).val - A < B := by omega
    have h2' : (i 1).val - A < B := by omega
    rw [dif_neg h', dif_pos h2', concatenate_pair_apply_right (1 : Fin 2) p q hc y rfl rfl (ix2 (y 0) ⟨(y 1).val - A, h2⟩)
      (fun b hb => by match b with | ⟨0, _⟩ => rfl | ⟨1, _⟩ => exact absurd rfl hb)
      (by show (y 1).val - A + A = (y 1).val; omega)]
    exact hQ _ _ hi0 (by show (i 1).val - A = (y 1).val - A; omega)

end Cert.LibDenseTile

end
-- ==== Proof.Spec.lean ====
/-
  The feed-forward head on cosine features, as whole-array functions on the extended reals.

  For a token array X [M, K] and a row C [1, K] the features are q(r, a) = cos X(r, a) · C(0, a). The hidden layer is
  h = max(q · W1 + B1, 0) with W1 [K, N] and the row B1 [1, N] added to every row, and the result is h · W2 + B2 with
  W2 [N, E] and the row B2 [1, E]. Every row of the result depends on that row of X only, so a kernel that walks the
  rows of X in tiles and computes the same chain on each tile leaves, at row p of the tile that starts at row o, the
  row o + p of the whole result.
-/
import proofs.«155636_j65481071397339_2_alg».proof.Proof.LibDenseTile

noncomputable section

namespace Cert.FfnSpec

open Idealize.ShloMosaic Idealize.ShloMosaic.ValueIdx Cert.LibTileRows Cert.LibPlainDot Cert.LibDenseTile

/-- The features: the cosine of every entry, scaled column by column by the one row C. -/
def feat {M K : Nat} (X : (⟨2, ![M, K]⟩ : Shape).Idx → EReal) (C : (⟨2, ![1, K]⟩ : Shape).Idx → EReal) :
    (⟨2, ![M, K]⟩ : Shape).Idx → EReal :=
  fun i => Ideal.cos (X i) * C (ix2 (0 : Fin 1) (i 1))

/-- The hidden layer: the features times W1, the row B1 added to every row, the maximum with zero. -/
def hiddenAct {M K N : Nat} (X : (⟨2, ![M, K]⟩ : Shape).Idx → EReal) (C : (⟨2, ![1, K]⟩ : Shape).Idx → EReal)
    (W1 : (⟨2, ![K, N]⟩ : Shape).Idx → EReal) (B1 : (⟨2, ![1, N]⟩ : Shape).Idx → EReal) :
    (⟨2, ![M, N]⟩ : Shape).Idx → EReal :=
  rowsBiasRelu (rowsProd (feat X C) W1) B1

/-- The result: the hidden layer times W2, the row B2 added to every row. -/
def head {M K N E : Nat} (X : (⟨2, ![M, K]⟩ : Shape).Idx → EReal) (C : (⟨2, ![1, K]⟩ : Shape).Idx → EReal)
    (W1 : (⟨2, ![K, N]⟩ : Shape).Idx → EReal) (B1 : (⟨2, ![1, N]⟩ : Shape).Idx → EReal)
    (W2 : (⟨2, ![N, E]⟩ : Shape).Idx → EReal) (B2 : (⟨2, ![1, E]⟩ : Shape).Idx → EReal) :
    (⟨2, ![M, E]⟩ : Shape).Idx → EReal :=
  rowsBias (rowsProd (hiddenAct X C W1 B1) W2) B2

/-- The features of a tile of rows are the tile of the features: the tile holds rows o, o + 1, … of X, the row c is C,
    and the change of float format after the product is the identity on the extended reals. -/
theorem tile_feat {Mb M K : Nat} {ψ : FTy} (x : FVec Ideal ⟨2, ![Mb, K]⟩ .f32) (c : FVec Ideal ⟨2, ![1, K]⟩ .f32)
    (hs : (⟨2, ![Mb, K]⟩ : Shape).ShapeCasts ⟨2, ![Mb, K]⟩) (hs' : (⟨2, ![1, K]⟩ : Shape).ShapeCasts ⟨2, ![1, K]⟩)
    (hb : (⟨2, ![1, K]⟩ : Shape).Broadcasts ⟨2, ![Mb, K]⟩) (hψ : ψ.bits < FTy.f32.bits)
    (X : (⟨2, ![M, K]⟩ : Shape).Idx → EReal) (C : (⟨2, ![1, K]⟩ : Shape).Idx → EReal) (o : Nat)
    (hX : ∀ (u : (⟨2, ![Mb, K]⟩ : Shape).Idx) (k : (⟨2, ![M, K]⟩ : Shape).Idx),
      (k 0).val = o + (u 0).val → (k 1).val = (u 1).val → x u = X k)
    (hC : ∀ u, c u = C u)
    (y : (⟨2, ![Mb, K]⟩ : Shape).Idx) (k : (⟨2, ![M, K]⟩ : Shape).Idx)
    (h0 : (k 0).val = o + (y 0).val) (h1 : (k 1).val = (y 1).val) :
    (truncf ψ (mulf (cos (shapeCast ⟨2, ![Mb, K]⟩ x hs)) (broadcastTo ⟨2, ![Mb, K]⟩ (shapeCast ⟨2, ![1, K]⟩ c hs') hb)) hψ :
      FVec Ideal ⟨2, ![Mb, K]⟩ ψ) y = feat X C k := by
  obtain ⟨p, q, rfl⟩ : ∃ (p : Fin Mb) (q : Fin K), y = ix2 p q := ⟨y 0, y 1, eq_ix2 y⟩
  rw [shapeCast_self, shapeCast_self]
  show Ideal.cos (x (ix2 p q)) * broadcastTo ⟨2, ![Mb, K]⟩ c hb (ix2 p q) = _
  rw [broadcastTo_1b_ab_apply c hb p q, hX (ix2 p q) k h0 h1, hC]
  have e : k 1 = q := Fin.ext h1
  unfold feat
  rw [e]

/-- The whole chain on a tile of rows is the tile of the whole result: at row p of the tile that holds rows o, o + 1, …
    of X, with the weights and the bias rows the whole arrays, the chain leaves the result's row o + p. -/
theorem tile_head {Mb M K N E : Nat}
    (d1 : DotDims ⟨2, ![Mb, K]⟩ ⟨2, ![K, N]⟩ ⟨2, ![Mb, N]⟩) (hd1 : Plain d1)
    (d2 : DotDims ⟨2, ![Mb, N]⟩ ⟨2, ![N, E]⟩ ⟨2, ![Mb, E]⟩) (hd2 : Plain d2)
    (x : FVec Ideal ⟨2, ![Mb, K]⟩ .f32) (c : FVec Ideal ⟨2, ![1, K]⟩ .f32)
    (w1 : FVec Ideal ⟨2, ![K, N]⟩ .bf16) (b1 : FVec Ideal ⟨2, ![1, N]⟩ .f32)
    (w2 : FVec Ideal ⟨2, ![N, E]⟩ .bf16) (b2 : FVec Ideal ⟨2, ![1, E]⟩ .f32)
    (hsx : (⟨2, ![Mb, K]⟩ : Shape).ShapeCasts ⟨2, ![Mb, K]⟩) (hsc : (⟨2, ![1, K]⟩ : Shape).ShapeCasts ⟨2, ![1, K]⟩)
    (hsw1 : (⟨2, ![K, N]⟩ : Shape).ShapeCasts ⟨2, ![K, N]⟩) (hsb1 : (⟨2, ![1, N]⟩ : Shape).ShapeCasts ⟨2, ![1, N]⟩)
    (hsw2 : (⟨2, ![N, E]⟩ : Shape).ShapeCasts ⟨2, ![N, E]⟩) (hsb2 : (⟨2, ![1, E]⟩ : Shape).ShapeCasts ⟨2, ![1, E]⟩)
    (hbc : (⟨2, ![1, K]⟩ : Shape).Broadcasts ⟨2, ![Mb, K]⟩) (hbb1 : (⟨2, ![1, N]⟩ : Shape).Broadcasts ⟨2, ![Mb, N]⟩)
    (hbb2 : (⟨2, ![1, E]⟩ : Shape).Broadcasts ⟨2, ![Mb, E]⟩) (hψ : FTy.bf16.bits < FTy.f32.bits)
    (X : (⟨2, ![M, K]⟩ : Shape).Idx → EReal) (C : (⟨2, ![1, K]⟩ : Shape).Idx → EReal)
    (W1 : (⟨2, ![K, N]⟩ : Shape).Idx → EReal) (B1 : (⟨2, ![1, N]⟩ : Shape).Idx → EReal)
    (W2 : (⟨2, ![N, E]⟩ : Shape).Idx → EReal) (B2 : (⟨2, ![1, E]⟩ : Shape).Idx → EReal) (o : Nat)
    (hX : ∀ (u : (⟨2, ![Mb, K]⟩ : Shape).Idx) (k : (⟨2, ![M, K]⟩ : Shape).Idx),
      (k 0).val = o + (u 0).val → (k 1).val = (u 1).val → x u = X k)
    (hC : ∀ u, c u = C u) (hW1 : ∀ u, w1 u = W1 u) (hB1 : ∀ u, b1 u = B1 u) (hW2 : ∀ u, w2 u = W2 u) (hB2 : ∀ u, b2 u = B2 u)
    (y : (⟨2, ![Mb, E]⟩ : Shape).Idx) (i : (⟨2, ![M, E]⟩ : Shape).Idx)
    (hi0 : (i 0).val = o + (y 0).val) (hi1 : (i 1).val = (y 1).val) :
    (addf (matmul d2 none
        (truncf .bf16 (maximumf (addf (matmul d1 none
            (truncf .bf16 (mulf (cos (shapeCast ⟨2, ![Mb, K]⟩ x hsx)) (broadcastTo ⟨2, ![Mb, K]⟩ (shapeCast ⟨2, ![1, K]⟩ c hsc) hbc)) hψ)
            (shapeCast ⟨2, ![K, N]⟩ w1 hsw1) (constant ⟨2, ![Mb, N]⟩ .f32 0x00000000#32))
          (broadcastTo ⟨2, ![Mb, N]⟩ (shapeCast ⟨2, ![1, N]⟩ b1 hsb1) hbb1))
          (broadcast ⟨2, ![Mb, N]⟩ (Scalar.ofBits .f32 0x00000000#32))) hψ)
        (shapeCast ⟨2, ![N, E]⟩ w2 hsw2) (constant ⟨2, ![Mb, E]⟩ .f32 0x00000000#32))
      (broadcastTo ⟨2, ![Mb, E]⟩ (shapeCast ⟨2, ![1, E]⟩ b2 hsb2) hbb2) : FVec Ideal ⟨2, ![Mb, E]⟩ .f32) y
      = head X C W1 B1 W2 B2 i := by
  unfold head hiddenAct
  refine tile_dense d2 hd2 _ _ _ hbb2 _ W2 B2 o (fun u k e0 e1 => ?_) (fun u => ?_) (fun u => ?_) y i hi0 hi1
  · refine tile_denseRelu d1 hd1 _ _ _ hbb1 hψ (feat X C) W1 B1 o (fun u' k' e0' e1' => ?_) (fun u' => ?_) (fun u' => ?_) u k e0 e1
    · exact tile_feat x c hsx hsc hbc hψ X C o hX hC u' k' e0' e1'
    · rw [shapeCast_self]; exact hW1 u'
    · rw [shapeCast_self]; exact hB1 u'
  · rw [shapeCast_self]; exact hW2 u
  · rw [shapeCast_self]; exact hB2 u

end Cert.FfnSpec

end
-- ==== Proof.Payload.lean ====
/-
  What the kernel body computes on a tile of tokens, read at an entry.

  The body's one store writes, for the tile of 1024 token rows it was handed, the chain of the specification —
  cosine features scaled by the row of cosines, the first dense layer with its bias row and rectifier, the second dense
  layer with its bias row — with the products fed in a narrower float format. On the extended reals that format change
  is the identity, so when the tile's rows are rows o, o + 1, … of the token array and the other operands are the whole
  weight and bias arrays, the entry (p, e) of what the body stores is the entry (o + p, e) of the whole-array result.
-/
import proofs.«155636_j65481071397339_2_alg».proof.Proof.Gen.KernelIdeal.Skeleton
import proofs.«155636_j65481071397339_2_alg».proof.Proof.Spec

noncomputable section

namespace Cert.KernelIdeal.Payload

open Idealize.ShloMosaic Idealize.ShloMosaic.ValueIdx Cert.KernelIdeal Cert.KernelIdeal.Gen Cert.FfnSpec Cert.LibPlainDot

/-- The first product contracts the features' columns against the first weight's rows. -/
theorem plain1 : Plain dot_S1024x8_S8x2048_S1024x2048_1_0_0_1_n_n := ⟨rfl, rfl, rfl, rfl, rfl, rfl⟩

/-- The second product contracts the hidden layer's columns against the second weight's rows. -/
theorem plain2 : Plain dot_S1024x2048_S2048x512_S1024x512_1_0_0_1_n_n := ⟨rfl, rfl, rfl, rfl, rfl, rfl⟩

/-- The stored tile at (p, e) is the whole result at (o + p, e). -/
theorem pay_eq_head (x0 : Vec Ideal S1024x8 .f32) (x1 : Vec Ideal S1x8 .f32) (x2 : Vec Ideal S8x2048 .bf16)
    (x3 : Vec Ideal S1x2048 .f32) (x4 : Vec Ideal S2048x512 .bf16) (x5 : Vec Ideal S1x512 .f32)
    (X : S32768x8.Idx → EReal) (C : S1x8.Idx → EReal) (W1 : S8x2048.Idx → EReal) (B1 : S1x2048.Idx → EReal)
    (W2 : S2048x512.Idx → EReal) (B2 : S1x512.Idx → EReal) (o : Nat)
    (hX : ∀ (u : S1024x8.Idx) (k : S32768x8.Idx), (k 0).val = o + (u 0).val → (k 1).val = (u 1).val → x0 u = X k)
    (hC : ∀ u, x1 u = C u) (hW1 : ∀ u, x2 u = W1 u) (hB1 : ∀ u, x3 u = B1 u) (hW2 : ∀ u, x4 u = W2 u) (hB2 : ∀ u, x5 u = B2 u)
    (y : S1024x512.Idx) (i : S32768x512.Idx) (hi0 : (i 0).val = o + (y 0).val) (hi1 : (i 1).val = (y 1).val) :
    k0_pay1 (F := Ideal) x0 x1 x2 x3 x4 x5 y = head X C W1 B1 W2 B2 i := by
  unfold k0_pay1
  exact tile_head _ plain1 _ plain2 x0 x1 x2 x3 x4 x5 _ _ _ _ _ _ _ _ _ _ X C W1 B1 W2 B2 o hX hC hW1 hB1 hW2 hB2 y i hi0 hi1

end Cert.KernelIdeal.Payload

end
-- ==== Proof.Entry.lean ====
/-
  The arrays the kernel's region finds, as functions of the program's arguments.

  Before the region the host lays the token array [8, 4096, 8] out as [32768, 8] (same row-major order), takes the
  cosine of the eight angles and lays them out as one row [1, 8], changes the two weight arrays' float format (the
  identity on the extended reals) and lays each bias vector out as one row. Each of these is read back from the host
  operations' run.
-/
import proofs.«155636_j65481071397339_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The token array, rows laid end to end. -/
theorem V_tokens (c : Dev nD) :
    (V m c main_v0 : S32768x8.Idx → EReal)
      = shapeCast S32768x8 (m ((c : Thread nD τ).loc main_arg0)) Facts₀.shapeCasts_S8x4096x8_S32768x8 := by
  show StableHlo.after hostOps0 (fun b => m (c, b)) (Proc.devRef .tc main_v0) = _
  after_results
  rfl

/-- The cosines of the angles, as one row. -/
theorem V_cosines (c : Dev nD) :
    (V m c main_v2 : S1x8.Idx → EReal)
      = shapeCast S1x8 (Host.cos (F := Ideal) (s := S8) (φ := .f32) (m ((c : Thread nD τ).loc main_arg1))) Facts₀.shapeCasts_S8_S1x8 := by
  show StableHlo.after hostOps0 (fun b => m (c, b)) (Proc.devRef .tc main_v2) = _
  after_results
  rfl

/-- The first weight array (its float format changed: the identity here). -/
theorem V_w1 (c : Dev nD) :
    (V m c main_v3 : S8x2048.Idx → EReal) = m ((c : Thread nD τ).loc main_arg2) := by
  show StableHlo.after hostOps0 (fun b => m (c, b)) (Proc.devRef .tc main_v3) = _
  after_results
  rfl

/-- The first bias vector, as one row. -/
theorem V_b1 (c : Dev nD) :
    (V m c main_v5 : S1x2048.Idx → EReal)
      = shapeCast S1x2048 (m ((c : Thread nD τ).loc main_arg3)) Facts₀.shapeCasts_S2048_S1x2048 := by
  show StableHlo.after hostOps0 (fun b => m (c, b)) (Proc.devRef .tc main_v5) = _
  after_results
  rfl

/-- The second weight array (its float format changed: the identity here). -/
theorem V_w2 (c : Dev nD) :
    (V m c main_v4 : S2048x512.Idx → EReal) = m ((c : Thread nD τ).loc main_arg4) := by
  show StableHlo.after hostOps0 (fun b => m (c, b)) (Proc.devRef .tc main_v4) = _
  after_results
  rfl

/-- The second bias vector, as one row. -/
theorem V_b2 (c : Dev nD) :
    (V m c main_v6 : S1x512.Idx → EReal)
      = shapeCast S1x512 (m ((c : Thread nD τ).loc main_arg5)) Facts₀.shapeCasts_S512_S1x512 := by
  show StableHlo.after hostOps0 (fun b => m (c, b)) (Proc.devRef .tc main_v6) = _
  after_results
  rfl

end Cert.KernelIdeal.Entry

end
-- ==== Proof.Blocks.lean ====
/-
  From the tiles the kernel writes to the whole result array, and on to the program's result.

  The region walks the 32768 token rows in 32 tiles of 1024. At tile t the token window and the output window both sit
  at block row t, while the row of cosines, the two weight arrays and the two bias rows are whole. So the tile the body
  stores at t is rows 1024·t … 1024·t + 1023 of the whole-array result of the specification, over the arrays as the
  region finds them; the 32 tiles cover the output array, which therefore ends holding that result; and the host's
  last operation lays the [32768, 512] array out as [8, 4096, 512] in the same row-major order.
-/
import proofs.«155636_j65481071397339_2_alg».proof.Proof.Gen.KernelIdeal.Frame
import proofs.«155636_j65481071397339_2_alg».proof.Proof.Payload
import proofs.«155636_j65481071397339_2_alg».proof.Proof.Entry
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Cert.FfnSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The whole result over the arrays as the region finds them. -/
def G (c : Dev nD) : S32768x512.Idx → EReal :=
  head (V m c main_v0 : S32768x8.Idx → EReal) (V m c main_v2 : S1x8.Idx → EReal) (V m c main_v3 : S8x2048.Idx → EReal)
    (V m c main_v5 : S1x2048.Idx → EReal) (V m c main_v4 : S2048x512.Idx → EReal) (V m c main_v6 : S1x512.Idx → EReal)

/-- Where each window's block sits at a grid point: the token window's block row is the output window's, every other
    block index is zero, and the output's block row is below 32. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 31 :=
  (by decide +kernel : ∀ t : Fin grid0.N, _)

/-- Every block row of the output is some point's. -/
theorem idx_onto : ∀ q : Fin 32, ∃ t : Fin cfg0.N, win0_6.index t = ![q.val, 0] :=
  (by decide +kernel : ∀ q : Fin 32, ∃ t : Fin grid0.N, win0_6.index t = ![q.val, 0])

/-- What point t writes back is block t of the whole result. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz]
  simp only [View.ld_unit_zero (S := S1024x8) hz, View.ld_unit_zero (S := S1x8) hz, View.ld_unit_zero (S := S8x2048) hz,
    View.ld_unit_zero (S := S1x2048) hz, View.ld_unit_zero (S := S2048x512) hz, View.ld_unit_zero (S := S1x512) hz]
  obtain ⟨e00, e01, e10, e11, e20, e21, e30, e31, e40, e41, e50, e51, e61, e60⟩ := idx_facts t
  funext j
  show k0_pay1 (F := Ideal) (iblk m c 0 t) (iblk m c 1 t) (iblk m c 2 t) (iblk m c 3 t) (iblk m c 4 t) (iblk m c 5 t) j
    = G m c (((cfg0.win 6).blk t).view.emb j)
  unfold G
  refine Payload.pay_eq_head (iblk m c 0 t) (iblk m c 1 t) (iblk m c 2 t) (iblk m c 3 t) (iblk m c 4 t) (iblk m c 5 t)
    _ _ _ _ _ _ (win0_6.index t (0 : Fin 2) * 1024) ?_ ?_ ?_ ?_ ?_ ?_ j _ ?_ ?_
  · intro u k h0 h1
    show V m c main_v0 (((cfg0.win 0).blk t).view.emb u) = V m c main_v0 k
    refine congrArg _ (funext fun a => Fin.ext ?_)
    match a with
    | ⟨0, _⟩ => show win0_0.index t (0 : Fin 2) * 1024 + 1 * (u 0).val = (k 0).val; omega
    | ⟨1, _⟩ => show win0_0.index t (1 : Fin 2) * 8 + 1 * (u 1).val = (k 1).val; omega
  · intro u
    show V m c main_v2 (((cfg0.win 1).blk t).view.emb u) = V m c main_v2 u
    refine congrArg _ (funext fun a => Fin.ext ?_)
    match a with
    | ⟨0, _⟩ => show win0_1.index t (0 : Fin 2) * 1 + 1 * (u 0).val = (u 0).val; omega
    | ⟨1, _⟩ => show win0_1.index t (1 : Fin 2) * 8 + 1 * (u 1).val = (u 1).val; omega
  · intro u
    show V m c main_v3 (((cfg0.win 2).blk t).view.emb u) = V m c main_v3 u
    refine congrArg _ (funext fun a => Fin.ext ?_)
    match a with
    | ⟨0, _⟩ => show win0_2.index t (0 : Fin 2) * 8 + 1 * (u 0).val = (u 0).val; omega
    | ⟨1, _⟩ => show win0_2.index t (1 : Fin 2) * 2048 + 1 * (u 1).val = (u 1).val; omega
  · intro u
    show V m c main_v5 (((cfg0.win 3).blk t).view.emb u) = V m c main_v5 u
    refine congrArg _ (funext fun a => Fin.ext ?_)
    match a with
    | ⟨0, _⟩ => show win0_3.index t (0 : Fin 2) * 1 + 1 * (u 0).val = (u 0).val; omega
    | ⟨1, _⟩ => show win0_3.index t (1 : Fin 2) * 2048 + 1 * (u 1).val = (u 1).val; omega
  · intro u
    show V m c main_v4 (((cfg0.win 4).blk t).view.emb u) = V m c main_v4 u
    refine congrArg _ (funext fun a => Fin.ext ?_)
    match a with
    | ⟨0, _⟩ => show win0_4.index t (0 : Fin 2) * 2048 + 1 * (u 0).val = (u 0).val; omega
    | ⟨1, _⟩ => show win0_4.index t (1 : Fin 2) * 512 + 1 * (u 1).val = (u 1).val; omega
  · intro u
    show V m c main_v6 (((cfg0.win 5).blk t).view.emb u) = V m c main_v6 u
    refine congrArg _ (funext fun a => Fin.ext ?_)
    match a with
    | ⟨0, _⟩ => show win0_5.index t (0 : Fin 2) * 1 + 1 * (u 0).val = (u 0).val; omega
    | ⟨1, _⟩ => show win0_5.index t (1 : Fin 2) * 512 + 1 * (u 1).val = (u 1).val; omega
  · show win0_6.index t (0 : Fin 2) * 1024 + 1 * (j 0).val = win0_6.index t (0 : Fin 2) * 1024 + (j 0).val
    omega
  · show win0_6.index t (1 : Fin 2) * 512 + 1 * (j 1).val = (j 1).val
    omega

/-- An index of the output array is in point t's block iff each coordinate is in the block's range on its axis. -/
theorem mem_blk (t : Fin cfg0.N) (i : S32768x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v7).slice (win0_6.rect t)).set ↔ _
  rw [View.set_slice_whole, Rect.mem_set_unit]
  exact Iff.rfl

/-- Every index of the output array is in some point's block: row r is in block row r / 1024. -/
theorem cover (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 512 ≤ (i 1).val ∧ (i 1).val < win0_6.index t (1 : Fin 2) * 512 + 512
    omega

/-- The output array after the region is the whole result. -/
theorem final (c : Dev nD) : (dats m 0 c).arrAt 6 cfg0.N = G m c :=
  (dats m 0 c).arrAt_eq_of_cover 6 (G m c) (fun t _ => flushed_eq m c t) cover

/-- The program's result: the output array laid out as [8, 4096, 512]. -/
theorem tail (c : Dev nD) :
    (Pipeline.afterTail₀ cfgs (dats m) 0 (V0 m) [hostOps1] c main_v8 : S8x4096x512.Idx → EReal)
      = shapeCast S8x4096x512 (G m c) Facts₀.shapeCasts_S32768x512_S8x4096x512 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = G m c := (Pipeline.withArrays_arr spec0 launch0.win.arr_inj c _ _ 6).trans (final m c)
  rw [e]
  rfl

/-- The kernel program's run, read: every weakly fair execution terminates with the result buffer at the whole result
    laid out as [8, 4096, 512], and the arguments as launched. -/
theorem run : θ_run defs (onTc (τ := τ) (main (F := Ideal))) ⟨m, fun _ => 0, ρ⟩ fun r => ∀ c : Dev nD,
      r.2.mem ((c : Thread nD τ).loc main_v8) = shapeCast S8x4096x512 (G m c) Facts₀.shapeCasts_S32768x512_S8x4096x512
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v8 (Pipeline.mem_restRefs_of main_v8 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Blocks

end
-- ==== Proof.RefValue.lean ====
/-
  The reference's result is the specification's, laid out as [8, 4096, 512].

  The reference keeps the batch and sequence axes apart: its two contractions run over the last axis of a rank-3 array
  against the first axis of a weight array, and its bias vectors are broadcast over both leading axes. At (b, s, e) it
  computes, operation by operation, what the whole-array specification computes at token row 4096·b + s and column e
  over the token array laid out as [32768, 8], the cosines of the angles as one row, and the bias vectors as one row
  each — the row-major position of (b, s, ·) in [8, 4096, ·] is that of (4096·b + s, ·) in [32768, ·].
-/
import proofs.«155636_j65481071397339_2_alg».proof.Proof.Gen.ReferenceIdeal.Read
import proofs.«155636_j65481071397339_2_alg».proof.Proof.Spec
import Idealize.ShloMosaic.Lib.ValueLayout

noncomputable section

namespace Cert.ReferenceIdeal.RefValue

open Cert.ReferenceIdeal Cert.ReferenceIdeal.Read Idealize.ShloMosaic Idealize.ShloMosaic.ValueIdx Cert.FfnSpec Cert.LibTileRows

/-- The token row of batch b and position s. -/
def row (b : Fin 8) (s : Fin 4096) : Fin 32768 := ⟨b.val * 4096 + s.val, by have := b.isLt; have := s.isLt; omega⟩

variable (x0 : S8x4096x8.Idx → EReal) (x1 : S8.Idx → EReal) (x2 : S8x2048.Idx → EReal) (x3 : S2048.Idx → EReal)
  (x4 : S2048x512.Idx → EReal) (x5 : S512.Idx → EReal)
  (hs0 : S8x4096x8.ShapeCasts ⟨2, ![32768, 8]⟩) (hs1 : S8.ShapeCasts ⟨2, ![1, 8]⟩) (hs3 : S2048.ShapeCasts ⟨2, ![1, 2048]⟩)
  (hs5 : S512.ShapeCasts ⟨2, ![1, 512]⟩)

/-- The token array laid out as [32768, 8], read at a token row. -/
theorem tokens_apply (b : Fin 8) (s : Fin 4096) (q : Fin 8) :
    shapeCast ⟨2, ![32768, 8]⟩ x0 hs0 (ix2 (row b s) q) = x0 (ix3 b s q) :=
  shapeCast_apply x0 hs0 _ _ (by
    rw [Shape.rowMajor_val_three, Shape.rowMajor_val_two]
    rfl)

/-- The reference's features at (b, s, q) are the specification's at the token row. -/
theorem feat_eq (b : Fin 8) (s : Fin 4096) (q : Fin 8) :
    val_main_v4 (F := Ideal) x0 x1 (ix3 b s q)
      = feat (shapeCast ⟨2, ![32768, 8]⟩ x0 hs0) (shapeCast ⟨2, ![1, 8]⟩ (Host.cos (F := Ideal) (s := S8) (φ := .f32) x1) hs1) (ix2 (row b s) q) := by
  rw [val_main_v4_apply, val_main_v0_apply, val_main_v3_apply, val_main_v2_apply, val_main_v1_apply]
  unfold feat
  rw [tokens_apply x0 hs0 b s q]
  show Ideal.cos (x0 (ix3 b s q)) * Ideal.cos (x1 (idx_main_v2 (idx_main_v3 (ix3 b s q)))) = Ideal.cos (x0 (ix3 b s q)) * _
  rw [shapeCast_a_1a_apply _ hs1 (0 : Fin 1) q]
  have e : idx_main_v2 (idx_main_v3 (ix3 b s q)) = ix1 q := funext fun a => by match a with | ⟨0, _⟩ => rfl
  rw [e]
  rfl

/-- The reference's hidden layer at (b, s, k) is the specification's at the token row. -/
theorem hidden_eq (b : Fin 8) (s : Fin 4096) (k : Fin 2048) :
    val_main_v9 (F := Ideal) x0 x1 x2 x3 (ix3 b s k)
      = hiddenAct (shapeCast ⟨2, ![32768, 8]⟩ x0 hs0) (shapeCast ⟨2, ![1, 8]⟩ (Host.cos (F := Ideal) (s := S8) (φ := .f32) x1) hs1) x2
          (shapeCast ⟨2, ![1, 2048]⟩ x3 hs3) (ix2 (row b s) k) := by
  rw [val_main_v9_apply, val_main_v8_apply, val_main_v5_apply, val_main_v7_apply, val_main_v6_apply,
    val_main_call0_v0_apply, val_main_call0_cst_apply]
  unfold hiddenAct rowsBiasRelu rowsBias rowsProd
  show max ((∑ q : Fin 8, val_main_v4 (F := Ideal) x0 x1 (lidx_main_v5 (ix3 b s k) q) * x2 (ridx_main_v5 (ix3 b s k) q))
      + x3 (idx_main_v6 (idx_main_v7 (ix3 b s k)))) (Ideal.ofBits .f32 0x00000000#32) = max ((∑ a : Fin 8, _ * x2 (ix2 a k)) + _) (Ideal.ofBits .f32 0x00000000#32)
  rw [shapeCast_a_1a_apply _ hs3 (0 : Fin 1) k]
  have e3 : idx_main_v6 (idx_main_v7 (ix3 b s k)) = ix1 k := funext fun a => by match a with | ⟨0, _⟩ => rfl
  rw [e3]
  refine congrArg (fun z => max (z + x3 (ix1 k)) (Ideal.ofBits .f32 0x00000000#32)) (Finset.sum_congr rfl fun q _ => ?_)
  have el : lidx_main_v5 (ix3 b s k) q = ix3 b s q := funext fun a => by
    match a with | ⟨0, _⟩ => rfl | ⟨1, _⟩ => rfl | ⟨2, _⟩ => rfl
  have er : ridx_main_v5 (ix3 b s k) q = ix2 q k := funext fun a => by
    match a with | ⟨0, _⟩ => rfl | ⟨1, _⟩ => rfl
  rw [el, er, feat_eq x0 x1 hs0 hs1 b s q]

/-- The reference's result at (b, s, e) is the specification's at the token row. -/
theorem result_eq (b : Fin 8) (s : Fin 4096) (e : Fin 512) :
    val_main_v13 (F := Ideal) x0 x1 x2 x3 x4 x5 (ix3 b s e)
      = head (shapeCast ⟨2, ![32768, 8]⟩ x0 hs0) (shapeCast ⟨2, ![1, 8]⟩ (Host.cos (F := Ideal) (s := S8) (φ := .f32) x1) hs1) x2
          (shapeCast ⟨2, ![1, 2048]⟩ x3 hs3) x4 (shapeCast ⟨2, ![1, 512]⟩ x5 hs5) (ix2 (row b s) e) := by
  rw [val_main_v13_apply, val_main_v10_apply, val_main_v12_apply, val_main_v11_apply]
  unfold head rowsBias rowsProd
  show (∑ k : Fin 2048, val_main_v9 (F := Ideal) x0 x1 x2 x3 (lidx_main_v10 (ix3 b s e) k) * x4 (ridx_main_v10 (ix3 b s e) k))
      + x5 (idx_main_v11 (idx_main_v12 (ix3 b s e))) = (∑ a : Fin 2048, _ * x4 (ix2 a e)) + _
  rw [shapeCast_a_1a_apply _ hs5 (0 : Fin 1) e]
  have e5 : idx_main_v11 (idx_main_v12 (ix3 b s e)) = ix1 e := funext fun a => by match a with | ⟨0, _⟩ => rfl
  rw [e5]
  refine congrArg (fun z => z + x5 (ix1 e)) (Finset.sum_congr rfl fun k _ => ?_)
  have el : lidx_main_v10 (ix3 b s e) k = ix3 b s k := funext fun a => by
    match a with | ⟨0, _⟩ => rfl | ⟨1, _⟩ => rfl | ⟨2, _⟩ => rfl
  have er : ridx_main_v10 (ix3 b s e) k = ix2 k e := funext fun a => by
    match a with | ⟨0, _⟩ => rfl | ⟨1, _⟩ => rfl
  rw [el, er, hidden_eq x0 x1 x2 x3 hs0 hs1 hs3 b s k]

/-- The specification's result laid out as [8, 4096, 512] is the reference's result. -/
theorem ref_eq (hso : (⟨2, ![32768, 512]⟩ : Shape).ShapeCasts S8x4096x512) :
    shapeCast S8x4096x512 (head (shapeCast ⟨2, ![32768, 8]⟩ x0 hs0)
        (shapeCast ⟨2, ![1, 8]⟩ (Host.cos (F := Ideal) (s := S8) (φ := .f32) x1) hs1) x2
        (shapeCast ⟨2, ![1, 2048]⟩ x3 hs3) x4 (shapeCast ⟨2, ![1, 512]⟩ x5 hs5)) hso
      = val_main_v13 (F := Ideal) x0 x1 x2 x3 x4 x5 := by
  funext i
  obtain ⟨b, s, e, rfl⟩ : ∃ (b : Fin 8) (s : Fin 4096) (e : Fin 512), i = ix3 b s e := ⟨i 0, i 1, i 2, eq_ix3 i⟩
  rw [result_eq x0 x1 x2 x3 x4 x5 hs0 hs1 hs3 hs5 b s e]
  exact shapeCast_apply _ hso _ _ (by
    rw [Shape.rowMajor_val_three, Shape.rowMajor_val_two]
    rfl)

end Cert.ReferenceIdeal.RefValue

end
-- ==== Proof.Claims.lean ====
/-
  The five claims.

  Both programs compute, on the extended reals, the same function of the six arguments: the cosine of every token entry
  scaled by the cosine of its column's angle, a dense layer with bias and rectifier, a second dense layer with bias. The
  kernel walks the 32768 token rows in tiles of 1024 and feeds its products in a narrower float format (the identity on
  the extended reals); the reference keeps batch and sequence apart. A row of the result depends on that token row only,
  and the two layouts [32768, ·] and [8, 4096, ·] share their row-major order, so the two results agree entry by entry.
  No law beyond reading each operation at an index is used, and the precondition is never opened.
-/
import proofs.«155636_j65481071397339_2_alg».proof.Defs
import proofs.«155636_j65481071397339_2_alg».proof.Proof.Gen.Kernel.Frame
import proofs.«155636_j65481071397339_2_alg».proof.Proof.Gen.KernelIdeal.Frame
import proofs.«155636_j65481071397339_2_alg».proof.Proof.Gen.Pre_finite_inputs
import proofs.«155636_j65481071397339_2_alg».proof.Proof.Gen.ReferenceIdeal.Run
import proofs.«155636_j65481071397339_2_alg».proof.Proof.Gen.ReferenceIdeal.Read
import proofs.«155636_j65481071397339_2_alg».proof.Proof.Blocks
import proofs.«155636_j65481071397339_2_alg».proof.Proof.Entry
import proofs.«155636_j65481071397339_2_alg».proof.Proof.RefValue

noncomputable section

namespace Cert.Proof.FfnClaims

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The whole result over the arrays the region finds, as a function of the arguments. -/
theorem G_args (m : (ℓ : Loc Cert.KernelIdeal.nD Cert.KernelIdeal.τ Cert.KernelIdeal.sig) → Buf (Elt Ideal) ℓ)
    (c : Dev Cert.KernelIdeal.nD) :
    Cert.KernelIdeal.Blocks.G m c
      = Cert.FfnSpec.head
          (shapeCast Cert.KernelIdeal.S32768x8 (m ((c : Thread Cert.KernelIdeal.nD Cert.KernelIdeal.τ).loc Cert.KernelIdeal.main_arg0))
            Cert.KernelIdeal.Facts₀.shapeCasts_S8x4096x8_S32768x8)
          (shapeCast Cert.KernelIdeal.S1x8 (Host.cos (F := Ideal) (s := Cert.KernelIdeal.S8) (φ := .f32)
            (m ((c : Thread Cert.KernelIdeal.nD Cert.KernelIdeal.τ).loc Cert.KernelIdeal.main_arg1))) Cert.KernelIdeal.Facts₀.shapeCasts_S8_S1x8)
          (m ((c : Thread Cert.KernelIdeal.nD Cert.KernelIdeal.τ).loc Cert.KernelIdeal.main_arg2))
          (shapeCast Cert.KernelIdeal.S1x2048 (m ((c : Thread Cert.KernelIdeal.nD Cert.KernelIdeal.τ).loc Cert.KernelIdeal.main_arg3))
            Cert.KernelIdeal.Facts₀.shapeCasts_S2048_S1x2048)
          (m ((c : Thread Cert.KernelIdeal.nD Cert.KernelIdeal.τ).loc Cert.KernelIdeal.main_arg4))
          (shapeCast Cert.KernelIdeal.S1x512 (m ((c : Thread Cert.KernelIdeal.nD Cert.KernelIdeal.τ).loc Cert.KernelIdeal.main_arg5))
            Cert.KernelIdeal.Facts₀.shapeCasts_S512_S1x512) := by
  unfold Cert.KernelIdeal.Blocks.G
  rw [Cert.KernelIdeal.Entry.V_tokens, Cert.KernelIdeal.Entry.V_cosines, Cert.KernelIdeal.Entry.V_w1, Cert.KernelIdeal.Entry.V_b1,
    Cert.KernelIdeal.Entry.V_w2, Cert.KernelIdeal.Entry.V_b2]

/-- From memories agreeing on the arguments both idealized programs end with the same result array. -/
theorem algebraic : Cert.algebraic_KernelIdeal_ReferenceIdeal := by
  intro m ρ m' ρ' _ hagree
  refine ⟨fun c => shapeCast Cert.KernelIdeal.S8x4096x512 (Cert.KernelIdeal.Blocks.G m c)
    Cert.KernelIdeal.Facts₀.shapeCasts_S32768x512_S8x4096x512, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2.1, (hagree c).2.2.2.2.2]
  show _ = shapeCast Cert.KernelIdeal.S8x4096x512 (Cert.KernelIdeal.Blocks.G m c)
    Cert.KernelIdeal.Facts₀.shapeCasts_S32768x512_S8x4096x512
  rw [G_args m c]
  exact (Cert.ReferenceIdeal.RefValue.ref_eq _ _ _ _ _ _ _ _ _ _ _).symm

end Cert.Proof.FfnClaims

end
-- ==== Proof.lean ====
/- The proof of `Cert.Claim`: the kernel (a feed-forward head on cosine features, walked in tiles of 1024 token rows) and
   its reference compute the same function of the arguments on the extended reals. The specification is Proof/Spec.lean
   (the whole-array functions and the tile lemma), the kernel body at an entry Proof/Payload.lean, the arrays the region
   finds Proof/Entry.lean, tiles to the whole array and on to the program's result Proof/Blocks.lean, the reference read
   operation by operation Proof/RefValue.lean, and the five claims Proof/Claims.lean. -/
import proofs.«155636_j65481071397339_2_alg».proof.Defs
import proofs.«155636_j65481071397339_2_alg».proof.Proof.Gen.Kernel
import proofs.«155636_j65481071397339_2_alg».proof.Proof.Gen.Kernel.Skeleton
import proofs.«155636_j65481071397339_2_alg».proof.Proof.Gen.Kernel.Launch
import proofs.«155636_j65481071397339_2_alg».proof.Proof.Gen.Kernel.Points
import proofs.«155636_j65481071397339_2_alg».proof.Proof.Gen.Kernel.Frame
import proofs.«155636_j65481071397339_2_alg».proof.Proof.Gen.KernelIdeal
import proofs.«155636_j65481071397339_2_alg».proof.Proof.Gen.KernelIdeal.Skeleton
import proofs.«155636_j65481071397339_2_alg».proof.Proof.Gen.KernelIdeal.Launch
import proofs.«155636_j65481071397339_2_alg».proof.Proof.Gen.KernelIdeal.Points
import proofs.«155636_j65481071397339_2_alg».proof.Proof.Gen.KernelIdeal.Frame
import proofs.«155636_j65481071397339_2_alg».proof.Proof.Gen.ReferenceIdeal
import proofs.«155636_j65481071397339_2_alg».proof.Proof.Gen.Pre_finite_inputs
import proofs.«155636_j65481071397339_2_alg».proof.Proof.Gen.ReferenceIdeal.Run
import proofs.«155636_j65481071397339_2_alg».proof.Proof.Gen.ReferenceIdeal.Read
import proofs.«155636_j65481071397339_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    FfnClaims.frame_k, FfnClaims.frame_ki, FfnClaims.frame_ri, FfnClaims.preserves, FfnClaims.algebraic⟩

end Cert.Proof

end
